-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x256x3 : Shape := ⟨4, ![16, 2048, 256, 3]⟩
abbrev S1 : Shape := ⟨1, ![1]⟩
abbrev S_ : Shape := ⟨0, ![]⟩

class Facts : Prop where
  bcast_S_S16x2048x256x3 : S_.BroadcastsInDim S16x2048x256x3 (![] : Fin 0 → Fin S16x2048x256x3.rank)
  reducesTo_S16x2048x256x3_S_d0_1_2_3 : S16x2048x256x3.ReducesTo [0, 1, 2, 3] S_
  h_S_ : 0 < S_.numel
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_arg5 : FVec F S1 .f32) (main_arg6 : FVec F S1 .f32) (main_v13 : IVec S_ 1) (main_v16 : IVec S16x2048x256x3 1) : IVec S_ 1 :=
  let main_c_5 : IVec S_ 1 := constantI S_ 1 1#1
  let main_v17 : IVec S_ 1 := (fun x v => Host.reduce IntOp.andi x v reducesTo_S16x2048x256x3_S_d0_1_2_3 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S16x2048x256x3 .f32) (main_arg1 : FVec F S16x2048x256x3 .f32) (main_arg2 : FVec F S16x2048x256x3 .f32) (main_arg3 : FVec F S16x2048x256x3 .f32) (main_arg4 : FVec F S1 .f32) (main_arg5 : FVec F S1 .f32) (main_arg6 : FVec F S1 .f32) : IVec S_ 1 :=
  let main_v0 : FVec F S16x2048x256x3 .f32 := Host.absf main_arg0
  let main_cst : FVec F S_ .f32 := constant S_ .f32 0x7F800000#32
  let main_v1 : FVec F S16x2048x256x3 .f32 := broadcastInDim S16x2048x256x3 ![] bcast_S_S16x2048x256x3 main_cst
  let main_v2 : IVec S16x2048x256x3 1 := cmpf .olt main_v0 main_v1
  let main_c : IVec S_ 1 := constantI S_ 1 1#1
  let main_v3 : IVec S_ 1 := (fun x v => Host.reduce IntOp.andi x v reducesTo_S16x2048x256x3_S_d0_1_2_3 h_S_) main_v2 main_c
  let main_v4 : FVec F S16x2048x256x3 .f32 := Host.absf main_arg1
  let main_cst_0 : FVec F S_ .f32 := constant S_ .f32 0x7F800000#32
  let main_v5 : FVec F S16x2048x256x3 .f32 := broadcastInDim S16x2048x256x3 ![] bcast_S_S16x2048x256x3 main_cst_0
  let main_v6 : IVec S16x2048x256x3 1 := cmpf .olt main_v4 main_v5
  let main_c_1 : IVec S_ 1 := constantI S_ 1 1#1
  let main_v7 : IVec S_ 1 := (fun x v => Host.reduce IntOp.andi x v reducesTo_S16x2048x256x3_S_d0_1_2_3 h_S_) main_v6 main_c_1
  let main_v8 : IVec S_ 1 := andi main_v3 main_v7
  let main_v9 : FVec F S16x2048x256x3 .f32 := Host.absf main_arg2
  let main_cst_2 : FVec F S_ .f32 := constant S_ .f32 0x7F800000#32
  let main_v10 : FVec F S16x2048x256x3 .f32 := broadcastInDim S16x2048x256x3 ![] bcast_S_S16x2048x256x3 main_cst_2
  let main_v11 : IVec S16x2048x256x3 1 := cmpf .olt main_v9 main_v10
  let main_c_3 : IVec S_ 1 := constantI S_ 1 1#1
  let main_v12 : IVec S_ 1 := (fun x v => Host.reduce IntOp.andi x v reducesTo_S16x2048x256x3_S_d0_1_2_3 h_S_) main_v11 main_c_3
  let main_v13 : IVec S_ 1 := andi main_v8 main_v12
  let main_v14 : FVec F S16x2048x256x3 .f32 := Host.absf main_arg3
  let main_cst_4 : FVec F S_ .f32 := constant S_ .f32 0x7F800000#32
  let main_v15 : FVec F S16x2048x256x3 .f32 := broadcastInDim S16x2048x256x3 ![] bcast_S_S16x2048x256x3 main_cst_4
  let main_v16 : IVec S16x2048x256x3 1 := cmpf .olt main_v14 main_v15
  fn_part1 (F := F) main_arg4 main_arg5 main_arg6 main_v13 main_v16
-- ==== Kernel.lean ====
abbrev S16x2048x256x3 : Shape := ⟨4, ![16, 2048, 256, 3]⟩
abbrev S1 : Shape := ⟨1, ![1]⟩
abbrev S32768x768 : Shape := ⟨2, ![32768, 768]⟩
abbrev S16x128 : Shape := ⟨2, ![16, 128]⟩
abbrev S1024x768 : Shape := ⟨2, ![1024, 768]⟩
abbrev S8x128 : Shape := ⟨2, ![8, 128]⟩
abbrev S1024 : Shape := ⟨1, ![1024]⟩
abbrev S1024x1 : Shape := ⟨2, ![1024, 1]⟩
abbrev S1x1 : Shape := ⟨2, ![1, 1]⟩
abbrev S_ : Shape := ⟨0, ![]⟩

abbrev nBuf : Space → Nat
  | .hbm => 30
  | .vmem => 10
  | .smem => 0
  | _ => 0

abbrev bufTy : (tb : Table) → Fin (tcTables nBuf tb) → BufTy
  | .hbm, ⟨0, _⟩ => ⟨S16x2048x256x3, .f32⟩
  | .hbm, ⟨1, _⟩ => ⟨S16x2048x256x3, .f32⟩
  | .hbm, ⟨2, _⟩ => ⟨S16x2048x256x3, .f32⟩
  | .hbm, ⟨3, _⟩ => ⟨S16x2048x256x3, .f32⟩
  | .hbm, ⟨4, _⟩ => ⟨S1, .f32⟩
  | .hbm, ⟨5, _⟩ => ⟨S1, .f32⟩
  | .hbm, ⟨6, _⟩ => ⟨S1, .f32⟩
  | .hbm, ⟨7, _⟩ => ⟨S32768x768, .f32⟩
  | .hbm, ⟨8, _⟩ => ⟨S32768x768, .f32⟩
  | .hbm, ⟨9, _⟩ => ⟨S32768x768, .f32⟩
  | .hbm, ⟨10, _⟩ => ⟨S32768x768, .f32⟩
  | .hbm, ⟨11, _⟩ => ⟨S16x128, .f32⟩
  | .hbm, ⟨12, _⟩ => ⟨S1x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S1024x768, .f32⟩
  | .local _ .vmem, ⟨1, _⟩ => ⟨S1024x768, .f32⟩
  | .local _ .vmem, ⟨2, _⟩ => ⟨S1024x768, .f32⟩
  | .local _ .vmem, ⟨3, _⟩ => ⟨S1024x768, .f32⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | .local _ .vmem, ⟨7, _⟩ => ⟨S1024x768, .f32⟩
  | .local _ .vmem, ⟨8, _⟩ => ⟨S8x128, .f32⟩
  | .local _ .vmem, ⟨9, _⟩ => ⟨S8x128, .f32⟩
  | _, _ => ⟨S16x2048x256x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S16x2048x256x3_S32768x768 : S16x2048x256x3.ShapeCasts S32768x768
  inb_S8x128_S8x128_0_0 : ∀ a, (![0, 0] : Fin 2 → Nat) a + S8x128.size a ≤ S8x128.size a
  h_S8x128 : 0 < S8x128.numel
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  reduces_S1024x768_S1024 : S1024x768.Reduces [1] S1024
  shapeCasts_S1024_S1024x1 : S1024.ShapeCasts S1024x1
  reduces_S1024x1_S1 : S1024x1.Reduces [0] S1
  shapeCasts_S1_S1x1 : S1.ShapeCasts S1x1
  inb_S8x128_S1x1_0_0 : ∀ a, (![0, 0] : Fin 2 → Nat) a + S1x1.size a ≤ S8x128.size a
  h_S1x1 : 0 < S1x1.numel
  shapeCasts_S1x1_S1x1 : S1x1.ShapeCasts S1x1
  slices_S16x128_S1x1_0_0 : S16x128.Slices ![0, 0] S1x1
  shapeCasts_S1x1_S_ : S1x1.ShapeCasts S_
  slices_S16x128_S1x1_8_0 : S16x128.Slices ![8, 0] S1x1
  shapeCasts_S1_S_ : S1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S32768x768.size a
  hwx0_0 : ∀ i : grid0.Coords, EltTy.bits .f32 = 32 ∨ (Rect.block (s := S32768x768) S1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S32768x768.size a
  hwx0_1 : ∀ i : grid0.Coords, EltTy.bits .f32 = 32 ∨ (Rect.block (s := S32768x768) S1024x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x768.size a ≤ S32768x768.size a
  hwx0_2 : ∀ i : grid0.Coords, EltTy.bits .f32 = 32 ∨ (Rect.block (s := S32768x768) S1024x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x768.size a ≤ S32768x768.size a
  hwx0_3 : ∀ i : grid0.Coords, EltTy.bits .f32 = 32 ∨ (Rect.block (s := S32768x768) S1024x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S16x128.size a
  hwx0_4 : ∀ i : grid0.Coords, EltTy.bits .f32 = 32 ∨ (Rect.block (s := S16x128) S8x128.size (cc0_transform_4 i) (hinb0_4 i)).WholeWords (EltTy.packing .f32)

variable [Facts₀]

abbrev win0_0 : Pipeline.Window sig grid0 :=
  Pipeline.Window.ofSpec (Memref.whole main_v0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x2048x256x3 : Shape := ⟨4, ![16, 2048, 256, 3]⟩
abbrev S1 : Shape := ⟨1, ![1]⟩
abbrev S_ : Shape := ⟨0, ![]⟩
abbrev S16x2048 : Shape := ⟨2, ![16, 2048]⟩

abbrev nBuf : Space → Nat
  | .hbm => 72
  | .vmem => 0
  | .smem => 0
  | _ => 0

abbrev bufTy : (tb : Table) → Fin (tcTables nBuf tb) → BufTy
  | .hbm, ⟨0, _⟩ => ⟨S16x2048x256x3, .f32⟩
  | .hbm, ⟨1, _⟩ => ⟨S16x2048x256x3, .f32⟩
  | .hbm, ⟨2, _⟩ => ⟨S16x2048x256x3, .f32⟩
  | .hbm, ⟨3, _⟩ => ⟨S16x2048x256x3, .f32⟩
  | .hbm, ⟨4, _⟩ => ⟨S1, .f32⟩
  | .hbm, ⟨5, _⟩ => ⟨S1, .f32⟩
  | .hbm, ⟨6, _⟩ => ⟨S1, .f32⟩
  | .hbm, ⟨7, _⟩ => ⟨S16x2048x256x3, .f32⟩
  | .hbm, ⟨8, _⟩ => ⟨S16x2048x256x3, .f32⟩
  | .hbm, ⟨9, _⟩ => ⟨S_, .f32⟩
  | .hbm, ⟨10, _⟩ => ⟨S16x2048, .f32⟩
  | .hbm, ⟨11, _⟩ => ⟨S16x2048, .f32⟩
  | .hbm, ⟨12, _⟩ => ⟨S_, .f32⟩
  | .hbm, ⟨13, _⟩ => ⟨S16x2048, .f32⟩
  | .hbm, ⟨14, _⟩ => ⟨S_, .f32⟩
  | .hbm, ⟨15, _⟩ => ⟨S16x2048, .f32⟩
  | .hbm, ⟨16, _⟩ => ⟨S16x2048, .i1⟩
  | .hbm, ⟨17, _⟩ => ⟨S_, .f32⟩
  | .hbm, ⟨18, _⟩ => ⟨S_, .f32⟩
  | .hbm, ⟨19, _⟩ => ⟨S16x2048, .f32⟩
  | .hbm, ⟨20, _⟩ => ⟨S16x2048, .f32⟩
  | .hbm, ⟨21, _⟩ => ⟨S_, .f32⟩
  | .hbm, ⟨22, _⟩ => ⟨S_, .f32⟩
  | .hbm, ⟨23, _⟩ => ⟨S16x2048x256x3, .f32⟩
  | .hbm, ⟨24, _⟩ => ⟨S16x2048x256x3, .f32⟩
  | .hbm, ⟨25, _⟩ => ⟨S_, .f32⟩
  | .hbm, ⟨26, _⟩ => ⟨S16x2048, .f32⟩
  | .hbm, ⟨27, _⟩ => ⟨S16x2048, .f32⟩
  | .hbm, ⟨28, _⟩ => ⟨S_, .f32⟩
  | .hbm, ⟨29, _⟩ => ⟨S16x2048, .f32⟩
  | .hbm, ⟨30, _⟩ => ⟨S_, .f32⟩
  | .hbm, ⟨31, _⟩ => ⟨S16x2048, .f32⟩
  | .hbm, ⟨32, _⟩ => ⟨S16x2048, .i1⟩
  | .hbm, ⟨33, _⟩ => ⟨S_, .f32⟩
  | .hbm, ⟨34, _⟩ => ⟨S_, .f32⟩
  | .hbm, ⟨35, _⟩ => ⟨S16x2048, .f32⟩
  | .hbm, ⟨36, _⟩ => ⟨S16x2048, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S16x2048x256x3, .f32⟩
  | .hbm, ⟨43, _⟩ => ⟨S16x2048x256x3, .f32⟩
  | .hbm, ⟨44, _⟩ => ⟨S_, .f32⟩
  | .hbm, ⟨45, _⟩ => ⟨S16x2048, .f32⟩
  | .hbm, ⟨46, _⟩ => ⟨S16x2048, .f32⟩
  | .hbm, ⟨47, _⟩ => ⟨S_, .f32⟩
  | .hbm, ⟨48, _⟩ => ⟨S16x2048, .f32⟩
  | .hbm, ⟨49, _⟩ => ⟨S_, .f32⟩
  | .hbm, ⟨50, _⟩ => ⟨S16x2048, .f32⟩
  | .hbm, ⟨51, _⟩ => ⟨S16x2048, .i1⟩
  | .hbm, ⟨52, _⟩ => ⟨S_, .f32⟩
  | .hbm, ⟨53, _⟩ => ⟨S_, .f32⟩
  | .hbm, ⟨54, _⟩ => ⟨S16x2048, .f32⟩
  | .hbm, ⟨55, _⟩ => ⟨S16x2048, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | _, _ => ⟨S16x2048x256x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_v11 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_cst_6 : Ref sig .tc := ⟨.hbm, 30, rfl⟩
abbrev main_v14 : Ref sig .tc := ⟨.hbm, 31, rfl⟩
abbrev main_v15 : Ref sig .tc := ⟨.hbm, 32, rfl⟩
abbrev main_cst_7 : Ref sig .tc := ⟨.hbm, 33, rfl⟩
abbrev main_call1_v0 : Ref sig .tc := ⟨.hbm, 34, rfl⟩
abbrev main_call1_v1 : Ref sig .tc := ⟨.hbm, 35, rfl⟩
abbrev main_v16 : Ref sig .tc := ⟨.hbm, 36, rfl⟩
abbrev main_cst_8 : Ref sig .tc := ⟨.hbm, 37, rfl⟩
abbrev main_v17 : Ref sig .tc := ⟨.hbm, 38, rfl⟩
abbrev main_cst_9 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_10 : Ref sig .tc := ⟨.hbm, 44, rfl⟩
abbrev main_v22 : Ref sig .tc := ⟨.hbm, 45, rfl⟩
abbrev main_v23 : Ref sig .tc := ⟨.hbm, 46, rfl⟩
abbrev main_cst_11 : Ref sig .tc := ⟨.hbm, 47, rfl⟩
abbrev main_v24 : Ref sig .tc := ⟨.hbm, 48, rfl⟩
abbrev main_cst_12 : Ref sig .tc := ⟨.hbm, 49, rfl⟩
abbrev main_v25 : Ref sig .tc := ⟨.hbm, 50, rfl⟩
abbrev main_v26 : Ref sig .tc := ⟨.hbm, 51, rfl⟩
abbrev main_cst_13 : Ref sig .tc := ⟨.hbm, 52, rfl⟩
abbrev main_call2_v0 : Ref sig .tc := ⟨.hbm, 53, rfl⟩
abbrev main_call2_v1 : Ref sig .tc := ⟨.hbm, 54, rfl⟩
abbrev main_v27 : Ref sig .tc := ⟨.hbm, 55, rfl⟩
abbrev main_cst_14 : Ref sig .tc := ⟨.hbm, 56, rfl⟩
abbrev main_v28 : Ref sig .tc := ⟨.hbm, 57, rfl⟩
abbrev main_cst_15 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_16 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_17 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩

abbrev nD : Nat := 1
abbrev τ : Topo := Topo.v7x

variable {F : FTy → Type} [FloatOps F]

class Facts₀ : Prop where
  reducesTo_S16x2048x256x3_S16x2048_d2_3 : S16x2048x256x3.ReducesTo [2, 3] S16x2048
  h_S_ : 0 < S_.numel
  bcast_S_S16x2048 : S_.BroadcastsInDim S16x2048 (![] : Fin 0 → Fin S16x2048.rank)
  reducesTo_S16x2048_S_d0_1 : S16x2048.ReducesTo [0, 1] S_
  shapeCasts_S1_S_ : S1.ShapeCasts S_

variable [Facts₀]

class Facts : Prop extends Facts₀ where

variable [Facts]
-- ==== Proof.LibNonnegSum.lean ====
/-
  Nonnegative extended reals under multiplication by a constant.

  Multiplication does not distribute over addition on all of the extended reals — at infinities of opposite signs
  the two sides differ — but it does over nonnegative terms. Hence:

  * `mul_self_nonneg`: a square is never negative, at the infinities too;
  * `sqrt_nonneg`: the ideal square root of a nonnegative extended real is nonnegative;
  * `mul_sum_of_nonneg`: a constant times a finite sum of nonnegative terms is the sum of the terms times the
    constant, whatever the constant (negative, infinite);
  * `sum_weighted`: three families summed with weights, row by row or family by family;
  * `ofBits_one_f32`: the f32 word `0x3F800000` is one.
-/
import Idealize.ShloMosaic.PureOps.Ideal
import Idealize.ShloMosaic.PureOps.Ideal.Laws

noncomputable section

open scoped BigOperators

namespace Cert.LibNonnegSum

open Idealize.ShloMosaic

/-- A square is never negative, at the infinities too. -/
theorem mul_self_nonneg (d : EReal) : 0 ≤ d * d := by
  induction d using EReal.rec with
  | bot => simp
  | top => simp
  | coe r => rw [← EReal.coe_mul]; exact EReal.coe_nonneg.mpr (_root_.mul_self_nonneg r)

/-- The root of a nonnegative extended real is nonnegative. -/
theorem sqrt_nonneg {s : EReal} (h : 0 ≤ s) : 0 ≤ Ideal.sqrt s := by
  induction s using EReal.rec with
  | bot => exact absurd h (by simp)
  | top => simp
  | coe r =>
    have hr : 0 ≤ r := EReal.coe_nonneg.mp h
    rw [Ideal.sqrt_coe, if_neg (not_lt.mpr hr)]
    exact EReal.coe_nonneg.mpr (Real.sqrt_nonneg r)

/-- A weight applied to a sum of nonnegative terms is the sum of the weighted terms. -/
theorem mul_sum_of_nonneg {ι : Type*} (s : Finset ι) (f : ι → EReal) (c : EReal) (hf : ∀ i ∈ s, 0 ≤ f i) :
    c * ∑ i ∈ s, f i = ∑ i ∈ s, f i * c := by
  classical
  induction s using Finset.induction_on with
  | empty => simp
  | insert a s ha ih =>
    rw [Finset.sum_insert ha, Finset.sum_insert ha,
      EReal.left_distrib_of_nonneg (hf a (Finset.mem_insert_self a s))
        (Finset.sum_nonneg fun i hi => hf i (Finset.mem_insert_of_mem hi)),
      ih fun i hi => hf i (Finset.mem_insert_of_mem hi), EReal.mul_comm c (f a)]

/-- Three families of terms, the first taken as it is (times a unit), the other two nonnegative and weighted:
    weighting and adding row by row and then summing is summing each family and then weighting and adding. -/
theorem sum_weighted {ι : Type*} (s : Finset ι) (f0 f1 f2 : ι → EReal) (one c1 c2 : EReal) (h1 : one = 1)
    (hf1 : ∀ i ∈ s, 0 ≤ f1 i) (hf2 : ∀ i ∈ s, 0 ≤ f2 i) :
    ∑ i ∈ s, ((f0 i * one + f1 i * c1) + f2 i * c2)
      = (∑ i ∈ s, f0 i + c1 * ∑ i ∈ s, f1 i) + c2 * ∑ i ∈ s, f2 i := by
  subst h1
  rw [Finset.sum_add_distrib, Finset.sum_add_distrib, mul_sum_of_nonneg s f1 c1 hf1, mul_sum_of_nonneg s f2 c2 hf2]
  simp only [mul_one]

/-- The f32 word of one. -/
theorem ofBits_one_f32 : Ideal.ofBits .f32 0x3F800000#32 = 1 := by
  simp [Ideal.ofBits, Ideal.ieee]
  norm_cast
  norm_num

end Cert.LibNonnegSum

end
-- ==== Proof.MaskedRoots.lean ====
/-
  The mathematics shared by both programs, over the extended reals and with no program in sight.

  A row contributes its MASKED ROOT: the square root of its sum of squared differences when the least entry of the
  target row is at least zero, and zero otherwise. Such a term is never negative — a sum of squares is at least
  zero, the root of a nonnegative extended real is nonnegative, and the other branch is zero.

  Multiplication by a constant does not distribute over every sum of extended reals (the infinities of opposite
  signs), but it does over sums of nonnegative terms: so a weight may be applied row by row, or once to the whole
  sum. This is the one law that joins "each row's three roots weighted and added, then all rows summed" to
  "three sums over all rows, then weighted and added".
-/
import Idealize.ShloMosaic.PureOps.Ideal
import Idealize.ShloMosaic.PureOps.Ideal.Laws
import Idealize.ShloMosaic.Lib.ValueIdx
import proofs.«123583_j21010980012214_2_alg».proof.Proof.LibNonnegSum

noncomputable section

open scoped BigOperators

namespace Cert.MaskedRoots

open Idealize.ShloMosaic

export Cert.LibNonnegSum (mul_self_nonneg sqrt_nonneg mul_sum_of_nonneg sum_weighted ofBits_one_f32)

/-- The masked root of a row whose target's least entry is `mn` and whose sum of squared differences is `ss`. -/
def masked (mn ss : EReal) : EReal :=
  Scalar.select (Ideal.cmp .oge mn (Ideal.ofBits .f32 0x00000000#32)) (Ideal.sqrt ss) (Ideal.ofBits .f32 0x00000000#32)

/-- A masked root is nonnegative when the sum of squares is. -/
theorem masked_nonneg (mn : EReal) {ss : EReal} (h : 0 ≤ ss) : 0 ≤ masked mn ss := by
  unfold masked Scalar.select
  split
  · exact sqrt_nonneg h
  · rw [Ideal.ofBits_zero_f32]

/-! ## One row of a matrix of rows

The arrays are read as matrices `[a, b]`: `a` rows of `b` entries. -/

open Idealize.ShloMosaic.ValueIdx

variable {a b : ℕ}

/-- The least entry of row `r` of the target, the minimum taken from the top. -/
def rowMin (T : (⟨2, ![a, b]⟩ : Shape).Idx → EReal) (r : Fin a) : EReal :=
  (Finset.univ : Finset (Fin b)).fold min (Ideal.ofBits .f32 0x7F800000#32) (fun l => T (ix2 r l))

/-- The sum over row `r` of the squared differences between an array and the target. -/
def rowSS (X T : (⟨2, ![a, b]⟩ : Shape).Idx → EReal) (r : Fin a) : EReal :=
  ∑ l : Fin b, (X (ix2 r l) - T (ix2 r l)) * (X (ix2 r l) - T (ix2 r l))

theorem rowSS_nonneg (X T : (⟨2, ![a, b]⟩ : Shape).Idx → EReal) (r : Fin a) : 0 ≤ rowSS X T r :=
  Finset.sum_nonneg fun _ _ => mul_self_nonneg _

/-- The masked root of row `r` for one array against the target. -/
def rowRoot (X T : (⟨2, ![a, b]⟩ : Shape).Idx → EReal) (r : Fin a) : EReal := masked (rowMin T r) (rowSS X T r)

theorem rowRoot_nonneg (X T : (⟨2, ![a, b]⟩ : Shape).Idx → EReal) (r : Fin a) : 0 ≤ rowRoot X T r :=
  masked_nonneg _ (rowSS_nonneg X T r)

/-- What row `r` contributes: its three masked roots, the first times one, the others weighted by the two
    literals (the f32 words nearest one tenth and one fifth), added left to right. -/
def rowVal (X0 X1 X2 T : (⟨2, ![a, b]⟩ : Shape).Idx → EReal) (r : Fin a) : EReal :=
  (rowRoot X0 T r * Ideal.ofBits .f32 0x3F800000#32 + rowRoot X1 T r * Ideal.ofBits .f32 0x3DCCCCCD#32)
    + rowRoot X2 T r * Ideal.ofBits .f32 0x3E4CCCCD#32

/-- A row's contribution depends on the row's entries only: two matrices (of whatever heights) whose rows `r` and `r'`
    hold the same entries contribute the same. -/
theorem rowVal_congr {a' : ℕ} (X0 X1 X2 T : (⟨2, ![a, b]⟩ : Shape).Idx → EReal)
    (Y0 Y1 Y2 U : (⟨2, ![a', b]⟩ : Shape).Idx → EReal) (r : Fin a) (r' : Fin a')
    (h0 : ∀ l, X0 (ix2 r l) = Y0 (ix2 r' l)) (h1 : ∀ l, X1 (ix2 r l) = Y1 (ix2 r' l))
    (h2 : ∀ l, X2 (ix2 r l) = Y2 (ix2 r' l)) (h3 : ∀ l, T (ix2 r l) = U (ix2 r' l)) :
    rowVal X0 X1 X2 T r = rowVal Y0 Y1 Y2 U r' := by
  unfold rowVal rowRoot rowMin rowSS
  simp only [h0, h1, h2, h3]

end Cert.MaskedRoots

end
-- ==== Proof.LibKeepdims.lean ====
/-
  Small layout operations and one-axis sums of a matrix, read at an index: a vector turned into a column
  ([a] → [a, 1]), a column broadcast along its rows ([a, 1] → [a, b]), the sum of a matrix along its rows
  ([a, b] → [a], at `i` the sum over `k` of the entries `(i, k)`) and the sum of a column ([a, 1] → [1]), the two
  sums at the ideal values, where a float sum is the sum of the extended reals.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values the sum of an `[a, b]` matrix along its rows is, at `i`, the sum over `k` of the entries `(i, k)`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

/-- At the ideal values the sum of an `[a, 1]` column is, at its one index, the sum over `r` of the entries `(r, 0)`. -/
theorem colSum_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ r : Fin a, src (ix2 r (0 : Fin 1)) := by
  refine (Ideal.multiReduction_add_single src acc h hφ hacc (ix1 u)).trans ?_
  refine Finset.sum_congr rfl fun r _ => congrArg src (funext fun ax => Fin.ext ?_)
  have hu : u.val = 0 := by omega
  match ax with
  | ⟨0, _⟩ => rfl
  | ⟨1, _⟩ => exact hu

end Cert.LibKeepdims

end
-- ==== Proof.LibMinFold.lean ====
/-
  Minima over one axis at the ideal values, and monotone maps through them.

  * `fold_min_map`: a monotone map of the extended reals commutes with the fold of `min` over any finite set,
    the starting value mapped too: `min` of images is the image of `min` on a linear order.
  * `sqrt_mono`: the ideal square root — the real root on `[0, ∞)`, `⊤` at `⊤`, `⊥` below zero — is monotone on
    ALL extended reals, so clamping at any constant and then taking the root is monotone too (`clampRoot_mono`).
  * `multiReduction_minimumf_single`: a `vector.multi_reduction <minimumf>` over ONE axis, read at a result index, is
    the fold of `min` from the accumulator's value over that axis's coordinates (the `<maximumf>` law's twin).
  * `hostReduce_minimumf_single`: the host's one-operand `stablehlo.reduce` with a `minimum` body over one axis likewise.
  * `ofBits_inf_f32`: the f32 word `0x7F800000` is `⊤`.
-/
import Idealize.ShloMosaic.PureOps.Ideal
import Idealize.ShloMosaic.PureOps.Ideal.Laws
import Idealize.ShloMosaic.PureOps.Reduce

noncomputable section

namespace Cert.MinFold

open Idealize.ShloMosaic

/-- A monotone map commutes with a fold of `min`: the fold of the images from the image of the start is the image of
    the fold. No finiteness, no non-emptiness: on a linear order `f (min a b) = min (f a) (f b)`. -/
theorem fold_min_map {ι : Type*} (s : Finset ι) (f : EReal → EReal) (hf : Monotone f) (c : EReal) (g : ι → EReal) :
    s.fold min (f c) (fun i => f (g i)) = f (s.fold min c g) := by
  classical
  induction s using Finset.induction_on with
  | empty => rfl
  | insert a s ha ih => rw [Finset.fold_insert ha, Finset.fold_insert ha, ih, hf.map_min]

/-- The ideal square root is monotone on the whole extended line: below zero it is the bottom, on `[0, ∞)` the real
    root, at the top the top. -/
theorem sqrt_mono : Monotone Ideal.sqrt := by
  intro a b hab
  induction a using EReal.rec with
  | bot => exact bot_le
  | top =>
    have hb : b = ⊤ := top_le_iff.mp hab
    rw [hb]
  | coe r =>
    induction b using EReal.rec with
    | bot => exact absurd hab (by simp)
    | top => exact le_top
    | coe s =>
      have hrs : r ≤ s := EReal.coe_le_coe_iff.mp hab
      rw [Ideal.sqrt_coe, Ideal.sqrt_coe]
      by_cases hr : r < 0
      · rw [if_pos hr]; exact bot_le
      · have hs : ¬ s < 0 := fun h => hr (lt_of_le_of_lt hrs h)
        rw [if_neg hr, if_neg hs]
        exact EReal.coe_le_coe_iff.mpr (Real.sqrt_le_sqrt hrs)

/-- Clamp from below at a constant, then take the root. -/
def clampRoot (z v : EReal) : EReal := Ideal.sqrt (max v z)

theorem clampRoot_mono (z : EReal) : Monotone (clampRoot z) :=
  fun _ _ h => sqrt_mono (max_le_max h le_rfl)

/-- At the top it is the top, whatever the clamp. -/
theorem clampRoot_top (z : EReal) : clampRoot z ⊤ = ⊤ := by
  unfold clampRoot
  rw [max_eq_left le_top]
  rfl

/-- The minimum of the clamped roots is the clamped root of the minimum, the minima taken from `⊤`. -/
theorem fold_min_clampRoot {ι : Type*} (s : Finset ι) (z : EReal) (g : ι → EReal) :
    s.fold min ⊤ (fun i => clampRoot z (g i)) = clampRoot z (s.fold min ⊤ g) := by
  have h := fold_min_map s (clampRoot z) (clampRoot_mono z) ⊤ g
  rw [clampRoot_top] at h
  exact h

/-- The f32 word of `+∞`. -/
theorem ofBits_inf_f32 : Ideal.ofBits .f32 0x7F800000#32 = ⊤ := by simp [Ideal.ofBits, Ideal.ieee]

variable {φ : FTy}

/-- A float `vector.multi_reduction <minimumf>` over one axis, read at the ideal values: the fold of `min` from the
    accumulator's value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The host's one-operand `stablehlo.reduce` with a `minimum` body over one axis, read at the ideal values: the
    fold of `min` from the initial value over that axis's coordinates. -/
theorem hostReduce_minimumf_single {s t u : Shape} {a : Fin s.rank} (x : FVec Ideal s φ) (init : FVec Ideal u φ)
    (h' : s.ReducesTo [a] t) (h : s.Reduces [a] t) (hu : 0 < u.numel) (j : t.Idx) :
    Host.reduce (FloatOps.minimumf (F := Ideal) (φ := φ)) x init h' hu j
      = (Finset.univ : Finset (Fin (s.size a))).fold min (init (Shape.Idx.first hu)) (x ∘ h.lift j) :=
  Host.reduce_eq_fold_single _ x init h' h hu j

end Cert.MinFold

end
-- ==== Proof.KernelBody.lean ====
/-
  The kernel body's arithmetic, read at an index at the ideal values.

  The body sees four blocks of 1024 rows by 768 entries — three arrays and the target — and one entry of its output
  block. For every row it forms the least target entry and, per array, the sum of squared differences from the
  target; it takes the three masked roots, weights and adds them, sums the 1024 row values, and adds that sum to
  the output entry it read. This module says exactly that about the body's payloads, one entry at a time.
-/
import proofs.«123583_j21010980012214_2_alg».proof.Proof.Gen.KernelIdeal.Skeleton
import proofs.«123583_j21010980012214_2_alg».proof.Proof.MaskedRoots
import proofs.«123583_j21010980012214_2_alg».proof.Proof.LibKeepdims
import proofs.«123583_j21010980012214_2_alg».proof.Proof.LibMinFold
import Idealize.ShloMosaic.Lib.Pipeline.Value
import Idealize.ShloMosaic.Lib.ValueIdx

noncomputable section

open scoped BigOperators

namespace Cert.KernelIdeal.Body

open Cert.KernelIdeal Cert.KernelIdeal.Gen Idealize.ShloMosaic Idealize.ShloMosaic.ValueIdx Cert.MaskedRoots

/-- The body's minimum along a row is the row's least entry. -/
theorem rowMin_eq (T : FVec Ideal S1024x768 .f32) (h : S1024x768.Reduces [1] S1024) (hφ : FKind.Formats .f32)
    (hacc : (0x7F800000#32 : BitVec 32) = 0x7F800000#32) (r : Fin 1024) :
    multiReduction (F := Ideal) .minimumf [1] S1024 T 0x7F800000#32 h hφ hacc (ix1 r) = rowMin T r := by
  refine (Cert.MinFold.multiReduction_minimumf_single T _ h hφ hacc (ix1 r)).trans ?_
  unfold rowMin
  refine congrArg (fun f => (Finset.univ : Finset (Fin 768)).fold min _ f)
    (funext fun l => congrArg T (funext fun ax => Fin.ext ?_))
  match ax with
  | ⟨0, _⟩ => rfl
  | ⟨1, _⟩ => rfl

/-- The body's sum along a row of the squared differences is the row's sum of squares. -/
theorem rowSS_eq (X T : FVec Ideal S1024x768 .f32) (h : S1024x768.Reduces [1] S1024) (hφ : FKind.Formats .f32)
    (hacc : (0x00000000#32 : BitVec 32) = 0x00000000#32) (r : Fin 1024) :
    multiReduction (F := Ideal) .add [1] S1024 (mulf (subf X T) (subf X T)) 0x00000000#32 h hφ hacc (ix1 r) = rowSS X T r :=
  Cert.LibKeepdims.rowSum_apply (mulf (subf X T) (subf X T)) _ h hφ hacc r

/-- The mask of row `r`: whether the least entry of the target's row is at least zero. -/
theorem mask_apply (T : Vec Ideal S1024x768 .f32) (r : Fin 1024) (u : Fin 1) :
    k0_pay4 (F := Ideal) T (ix2 r u) = Ideal.cmp .oge (rowMin T r) (Ideal.ofBits .f32 0x00000000#32) := by
  unfold k0_pay4 k0_pay3
  rw [cmpf_apply, Cert.LibKeepdims.shapeCast_a_a1_apply, shapeCast_self]
  exact congrArg (fun z => Ideal.cmp .oge z (Ideal.ofBits .f32 0x00000000#32)) (rowMin_eq T _ _ _ r)

/-- A column cast of the body's row sums of squares, read at row `r`. -/
theorem ss_apply (X T : Vec Ideal S1024x768 .f32) (r : Fin 1024) (u : Fin 1) :
    shapeCast S1024x1 (multiReduction (F := Ideal) .add [1] S1024
        (mulf (subf (shapeCast S1024x768 X Facts₀.shapeCasts_S1024x768_S1024x768) (k0_pay3 (F := Ideal) T))
          (subf (shapeCast S1024x768 X Facts₀.shapeCasts_S1024x768_S1024x768) (k0_pay3 (F := Ideal) T)))
        0x00000000#32 Facts₀.reduces_S1024x768_S1024 (.inl rfl) rfl) Facts₀.shapeCasts_S1024_S1024x1 (ix2 r u)
      = rowSS X T r := by
  unfold k0_pay3
  rw [Cert.LibKeepdims.shapeCast_a_a1_apply, shapeCast_self, shapeCast_self]
  exact rowSS_eq X T _ _ _ r

/-- The third array's sums of squares, row by row. -/
theorem pay6_apply (T X2 : Vec Ideal S1024x768 .f32) (r : Fin 1024) (u : Fin 1) :
    k0_pay6 (F := Ideal) T X2 (ix2 r u) = rowSS X2 T r := by
  unfold k0_pay6
  exact ss_apply X2 T r u

/-- Two columns of sums of squares under one mask: the roots selected against zero, weighted by two literals, added. -/
theorem weighted2_apply (c : IVec S1024x1 1) (A B : FVec Ideal S1024x1 .f32) (w0 w1 : BitVec 32) (i : S1024x1.Idx) :
    addf (mulf (select c (sqrt A) (broadcast S1024x1 (Scalar.ofBits (F := Ideal) .f32 0x00000000#32)))
            (broadcast S1024x1 (Scalar.ofBits (F := Ideal) .f32 w0)))
         (mulf (select c (sqrt B) (broadcast S1024x1 (Scalar.ofBits (F := Ideal) .f32 0x00000000#32)))
            (broadcast S1024x1 (Scalar.ofBits (F := Ideal) .f32 w1))) i
      = Scalar.select (c i) (Ideal.sqrt (A i)) (Ideal.ofBits .f32 0x00000000#32) * Ideal.ofBits .f32 w0
        + Scalar.select (c i) (Ideal.sqrt (B i)) (Ideal.ofBits .f32 0x00000000#32) * Ideal.ofBits .f32 w1 := rfl

/-- The first two arrays' masked roots of row `r`, weighted (by one, by the first literal) and added. -/
theorem pay5_apply (T X0 X1 : Vec Ideal S1024x768 .f32) (r : Fin 1024) (u : Fin 1) :
    k0_pay5 (F := Ideal) T X0 X1 (ix2 r u)
      = rowRoot X0 T r * Ideal.ofBits .f32 0x3F800000#32 + rowRoot X1 T r * Ideal.ofBits .f32 0x3DCCCCCD#32 := by
  refine (weighted2_apply (k0_pay4 (F := Ideal) T) _ _ _ _ (ix2 r u)).trans ?_
  rw [mask_apply, ss_apply X0 T r u, ss_apply X1 T r u]
  rfl

/-- The stored entry: the entry read, plus the sum over the 1024 rows of the column `v31` plus the third masked root weighted. -/
theorem pay1_apply (v8 : IVec S1024x1 1) (v31 v37 : FVec Ideal S1024x1 .f32) (v46 : Vec Ideal S1x1 .f32) (u u' : Fin 1) :
    k0_pay1 (F := Ideal) v8 v31 v37 v46 (ix2 u u')
      = v46 (ix2 u u') + ∑ r : Fin 1024, (v31 (ix2 r (0 : Fin 1))
          + Scalar.select (v8 (ix2 r (0 : Fin 1))) (Ideal.sqrt (v37 (ix2 r (0 : Fin 1)))) (Ideal.ofBits .f32 0x00000000#32)
            * Ideal.ofBits .f32 0x3E4CCCCD#32) := by
  unfold k0_pay1
  rw [addf_apply, shapeCast_self, Cert.LibKeepdims.shapeCast_a_a1_apply]
  refine congrArg (fun z => v46 (ix2 u u') + z) ?_
  refine (Cert.LibKeepdims.colSum_apply _ _ _ _ _ u).trans ?_
  rfl

/-- THE BODY'S VALUE at one grid point: the output entry it read plus the sum of its 1024 rows' contributions. -/
theorem body_value (T X0 X1 X2 : Vec Ideal S1024x768 .f32) (v46 : Vec Ideal S1x1 .f32) (u u' : Fin 1) :
    k0_pay1 (F := Ideal) (k0_pay4 T) (k0_pay5 T X0 X1) (k0_pay6 T X2) v46 (ix2 u u')
      = v46 (ix2 u u') + ∑ r : Fin 1024, rowVal X0 X1 X2 T r := by
  rw [pay1_apply]
  refine congrArg (fun z => v46 (ix2 u u') + z) (Finset.sum_congr rfl fun r _ => ?_)
  rw [pay5_apply, mask_apply, pay6_apply]
  rfl

end Cert.KernelIdeal.Body

end
-- ==== Proof.KernelCases.lean ====
/-
  What the body leaves at the corner entry (0, 0) of its output block, in each of its two cases.

  At the first row block of a core the body first fills the output block with zeros and then replaces the corner
  entry by "corner + this point's sum of row contributions": the corner ends at zero plus that sum. At every later
  row block only the corner entry is replaced, by what the block held there before plus this point's sum.
-/
import proofs.«123583_j21010980012214_2_alg».proof.Proof.Gen.KernelIdeal.Frame
import proofs.«123583_j21010980012214_2_alg».proof.Proof.KernelBody
import Idealize.ShloMosaic.Lib.Pipeline.Value
import Idealize.ShloMosaic.Lib.WritesUnit
import Idealize.ShloMosaic.Lib.Tactic

noncomputable section

open scoped BigOperators

namespace Cert.KernelIdeal.Cases

open Cert.KernelIdeal Cert.KernelIdeal.Gen Idealize.ShloMosaic Idealize.ShloMosaic.TcCoe Idealize.SL.Sem
open Idealize.ShloMosaic.ValueIdx Cert.MaskedRoots

theorem hz : (![0, 0] : Fin 2 → Nat) = fun _ => 0 := funext fun a => by fin_cases a <;> rfl

/-- A load of the one entry at the corner of a block reads the block's corner entry. -/
theorem ld_corner (X : Vec Ideal S8x128 .f32) (inb : ∀ a, (![0, 0] : Fin 2 → Nat) a + (![1, 1] : Fin 2 → Nat) a ≤ S8x128.size a) :
    View.ld (Val := Elt Ideal) (e' := .f32) X (Rect.unit (s := S8x128) ![0, 0] ![1, 1] inb) (ix2 (0 : Fin 1) (0 : Fin 1))
      = X (ix2 (0 : Fin 8) (0 : Fin 128)) :=
  congrArg X (funext fun a => Fin.ext (by
    match a with
    | ⟨0, _⟩ => rfl
    | ⟨1, _⟩ => rfl))

/-- A LATER ROW BLOCK of a core: the corner ends at what it held plus the point's sum. -/
theorem out_B_corner (c : Dev nD) (i : grid0.Coords) (a2 : Memref sig .tc .vmem S1024x768 .f32) (h2 : a2.IsWhole) (a3 : Memref sig .tc .vmem S1024x768 .f32) (h3 : a3.IsWhole) (a4 : Memref sig .tc .vmem S1024x768 .f32) (h4 : a4.IsWhole) (a5 : Memref sig .tc .vmem S1024x768 .f32) (h5 : a5.IsWhole) (a6 : Memref sig .tc .vmem S8x128 .f32) (h6 : a6.IsWhole) (hc : ¬cond0_0 i)
    (x0 x1 x2 x3 : Vec Ideal S1024x768 .f32) (xo : Vec Ideal S8x128 .f32) :
    out0_B_4 (F := Ideal) c i a2 h2 a3 h3 a4 h4 a5 h5 a6 h6 hc x0 x1 x2 x3 xo (ix2 (0 : Fin 8) (0 : Fin 128))
      = xo (ix2 (0 : Fin 8) (0 : Fin 128)) + ∑ r : Fin 1024, rowVal x0 x1 x2 x3 r := by
  unfold out0_B_4 kernelRun0_B
  dsimp only
  sl_unfold_words
  refine (View.read_writes_cons_unit_of_mem a6.view _ _ _ [] (ix2 (0 : Fin 8) (0 : Fin 128))
    (ix2 (0 : Fin 1) (0 : Fin 1)) rfl (fun a => ?_)).trans ?_
  · match a with
    | ⟨0, _⟩ => rfl
    | ⟨1, _⟩ => rfl
  · simp only [View.readAt_eq_ld, h2.read_unread, h3.read_unread, h4.read_unread, h5.read_unread, h6.read_unread,
      View.ld_unit_zero (S := S1024x768) hz]
    refine (Cert.KernelIdeal.Body.body_value x3 x0 x1 x2 _ 0 0).trans ?_
    exact congrArg (fun z => z + ∑ r : Fin 1024, rowVal x0 x1 x2 x3 r) (ld_corner xo _)

/-- THE FIRST ROW BLOCK of a core: the block is zeroed first, so the corner ends at zero plus the point's sum. -/
theorem out_A_corner (c : Dev nD) (i : grid0.Coords) (a2 : Memref sig .tc .vmem S1024x768 .f32) (h2 : a2.IsWhole) (a3 : Memref sig .tc .vmem S1024x768 .f32) (h3 : a3.IsWhole) (a4 : Memref sig .tc .vmem S1024x768 .f32) (h4 : a4.IsWhole) (a5 : Memref sig .tc .vmem S1024x768 .f32) (h5 : a5.IsWhole) (a6 : Memref sig .tc .vmem S8x128 .f32) (h6 : a6.IsWhole) (hc : cond0_0 i)
    (x0 x1 x2 x3 : Vec Ideal S1024x768 .f32) :
    out0_A_4 (F := Ideal) c i a2 h2 a3 h3 a4 h4 a5 h5 a6 h6 hc x0 x1 x2 x3 (ix2 (0 : Fin 8) (0 : Fin 128))
      = Ideal.ofBits .f32 0x00000000#32 + ∑ r : Fin 1024, rowVal x0 x1 x2 x3 r := by
  unfold out0_A_4 kernelRun0_A
  dsimp only
  sl_unfold_words
  refine (View.read_writes_cons_unit_of_mem VO0_4 _ _ _ _ (ix2 (0 : Fin 8) (0 : Fin 128))
    (ix2 (0 : Fin 1) (0 : Fin 1)) rfl (fun a => ?_)).trans ?_
  · match a with
    | ⟨0, _⟩ => rfl
    | ⟨1, _⟩ => rfl
  · simp only [View.readAt_eq_ld, h2.read_unread, h3.read_unread, h4.read_unread, h5.read_unread,
      View.ld_unit_zero (S := S1024x768) hz]
    rw [View.readCov_eq_canon_ld a6.view
        [(⟨Rect.unit (s := S8x128) ![0, 0] S8x128.size Facts₀.inb_S8x128_S8x128_0_0, k0_pay2 (F := Ideal)⟩ : View.Piece (Elt Ideal) S8x128 .f32)]
        (Rect.unit (s := S8x128) ![0, 0] ![1, 1] Facts₀.inb_S8x128_S1x1_0_0)
        (fun y => ⟨_, List.mem_singleton_self _, View.mem_set_unit_zero hz Facts₀.inb_S8x128_S8x128_0_0 y⟩),
      View.canon_unit_zero hz]
    refine (Cert.KernelIdeal.Body.body_value x3 x0 x1 x2 _ 0 0).trans ?_
    exact congrArg (fun z => z + ∑ r : Fin 1024, rowVal x0 x1 x2 x3 r) (ld_corner (k0_pay2 (F := Ideal)) _)

end Cert.KernelIdeal.Cases

end
-- ==== Proof.KernelAcc.lean ====
/-
  The accumulation across the grid, and what is written back.

  The grid has 32 points, 16 per core, visited in order; point `n` sees rows `1024 n … 1024 n + 1023` of the four
  arrays. The output block of a core stays in place across its 16 points: its corner entry starts at the first
  point's sum and grows by each later point's sum, so after point `n` it is the sum of the point sums from the
  core's first point up to `n`. The block is written back at the core's last point (points 15 and 31), into rows
  0–7 and 8–15 of the result array: entries (0, 0) and (8, 0) of that array end at the two cores' totals.
-/
import proofs.«123583_j21010980012214_2_alg».proof.Proof.KernelCases
import Idealize.ShloMosaic.Lib.Pipeline.Value

noncomputable section

open scoped BigOperators

namespace Cert.KernelIdeal.Acc

open Cert.KernelIdeal Cert.KernelIdeal.Gen Idealize.ShloMosaic Idealize.ShloMosaic.TcCoe Idealize.SL.Sem
open Idealize.ShloMosaic.ValueIdx Cert.MaskedRoots
open Idealize.ShloMosaic.Pipeline (Dat)

variable (m : (ℓ : Loc nD τ sig) → Buf (Elt Ideal) ℓ)

/-- The sum of the 1024 row contributions of the blocks at grid point `t`. -/
def pointSum (c : Dev nD) (t : Fin cfg0.N) : EReal :=
  ∑ r : Fin 1024, rowVal (a := 1024) (b := 768) (iblk m c 0 t) (iblk m c 1 t) (iblk m c 2 t) (iblk m c 3 t) r

/-- The same, indexed by a natural number (zero past the grid), for sums over intervals of points. -/
def pointN (c : Dev nD) (n : ℕ) : EReal := if h : n < cfg0.N then pointSum m c ⟨n, h⟩ else 0

theorem pointN_of_lt (c : Dev nD) (n : ℕ) (h : n < cfg0.N) : pointN m c n = pointSum m c ⟨n, h⟩ := dif_pos h

/-- At a core's first point the corner is that point's sum. -/
theorem corner_A (c : Dev nD) (t : Fin cfg0.N) (h0 : t.val % 16 = 0) :
    outsAt0 m c t.val t.isLt (ix2 (0 : Fin 8) (0 : Fin 128)) = pointSum m c t := by
  rw [outsAt0_A m c t h0]
  refine (Cert.KernelIdeal.Cases.out_A_corner c (grid0.coords t) (ms0_0 t) (hs0_0 t) (ms0_1 t) (hs0_1 t) (ms0_2 t) (hs0_2 t) (ms0_3 t) (hs0_3 t) (ms0_4 t) (hs0_4 t) ((hcond0_0 t).mpr h0)
    (iblk m c 0 t) (iblk m c 1 t) (iblk m c 2 t) (iblk m c 3 t)).trans ?_
  rw [Ideal.ofBits_zero_f32, zero_add]
  rfl

/-- At a later point it is what the point before left, plus the point's sum. -/
theorem corner_B (c : Dev nD) (t : Fin cfg0.N) (h0 : ¬t.val % 16 = 0) :
    outsAt0 m c t.val t.isLt (ix2 (0 : Fin 8) (0 : Fin 128))
      = outsAt0 m c (t.val - 1) (Nat.lt_of_le_of_lt (Nat.sub_le _ _) t.isLt) (ix2 (0 : Fin 8) (0 : Fin 128)) + pointSum m c t := by
  rw [outsAt0_B m c t h0]
  exact Cert.KernelIdeal.Cases.out_B_corner c (grid0.coords t) (ms0_0 t) (hs0_0 t) (ms0_1 t) (hs0_1 t) (ms0_2 t) (hs0_2 t) (ms0_3 t) (hs0_3 t) (ms0_4 t) (hs0_4 t) (fun h => h0 ((hcond0_0 t).mp h))
    (iblk m c 0 t) (iblk m c 1 t) (iblk m c 2 t) (iblk m c 3 t)
    (outsAt0 m c (t.val - 1) (Nat.lt_of_le_of_lt (Nat.sub_le _ _) t.isLt))

/-- THE RUNNING SUM: after point `n` the corner holds the point sums from the first point of `n`'s core up to `n`. -/
theorem corner_eq (c : Dev nD) : ∀ (n : ℕ) (h : n < cfg0.N),
    outsAt0 m c n h (ix2 (0 : Fin 8) (0 : Fin 128)) = ∑ k ∈ Finset.Ico (n / 16 * 16) (n + 1), pointN m c k
  | 0, h => by
    rw [corner_A m c ⟨0, h⟩ rfl]
    show _ = ∑ k ∈ Finset.Ico 0 1, pointN m c k
    rw [Nat.Ico_succ_singleton, Finset.sum_singleton, pointN_of_lt m c 0 h]
  | n + 1, h => by
    by_cases h0 : (n + 1) % 16 = 0
    · rw [corner_A m c ⟨n + 1, h⟩ h0]
      have e : (n + 1) / 16 * 16 = n + 1 := by omega
      rw [e, Nat.Ico_succ_singleton, Finset.sum_singleton, pointN_of_lt m c (n + 1) h]
    · rw [corner_B m c ⟨n + 1, h⟩ h0]
      have e : (n + 1) / 16 * 16 = n / 16 * 16 := by omega
      have hle : n / 16 * 16 ≤ n + 1 := by omega
      rw [e, Finset.sum_Ico_succ_top hle, pointN_of_lt m c (n + 1) h]
      show outsAt0 m c n _ (ix2 (0 : Fin 8) (0 : Fin 128)) + _ = _
      rw [corner_eq c n]

/-! ## The write-back -/

/-- What the write-back at point `t` writes at its block's corner is the corner of the staging block. -/
theorem flushed_corner (c : Dev nD) (t : Fin cfg0.N) :
    (dats m 0 c).flushed 4 t (ix2 (0 : Fin 8) (0 : Fin 128)) = outsAt0 m c t.val t.isLt (ix2 (0 : Fin 8) (0 : Fin 128)) := by
  show (cfg0.win 4).cut (grid0.coords t) ((dats m 0 c).after 4 t) (ix2 (0 : Fin 8) (0 : Fin 128)) = _
  rw [after0_4]
  rfl

/-- The output's block at point `t` is block row `t / 16` (the core), block column 0. -/
theorem index4 : ∀ t : Fin cfg0.N, win0_4.index t 0 = t.val / 16 ∧ win0_4.index t 1 = 0 :=
  (by decide +kernel : ∀ t : Fin grid0.N, win0_4.index t 0 = t.val / 16 ∧ win0_4.index t 1 = 0)

/-- So it is rows `8 (t / 16) … 8 (t / 16) + 7` of the result array, all 128 columns. -/
theorem mem_blk4 (t : Fin cfg0.N) (i : S16x128.Idx) :
    i ∈ ((cfg0.win 4).blk t).view.set ↔ t.val / 16 * 8 ≤ (i 0).val ∧ (i 0).val < t.val / 16 * 8 + 8 := by
  show i ∈ ((View.whole main_v4).slice (win0_4.rect t)).set ↔ _
  rw [View.set_slice_whole, Rect.mem_set_unit]
  have hi := index4 t
  have h1 : (i 1).val < 128 := (i 1).isLt
  constructor
  · intro h
    have h0 : win0_4.index t 0 * 8 ≤ (i 0).val ∧ (i 0).val < win0_4.index t 0 * 8 + 8 := h 0
    rw [hi.1] at h0
    exact h0
  · intro h a
    match a with
    | ⟨0, _⟩ =>
      show win0_4.index t 0 * 8 ≤ (i 0).val ∧ (i 0).val < win0_4.index t 0 * 8 + 8
      rw [hi.1]; exact h
    | ⟨1, _⟩ =>
      show win0_4.index t 1 * 128 ≤ (i 1).val ∧ (i 1).val < win0_4.index t 1 * 128 + 128
      rw [hi.2]; omega

/-- The two write-backs (points 15 and 31) go to different block rows. -/
theorem disjoint4 (t t' : Fin cfg0.N) (hf : (cfg0.win 4).flush t = true) (hf' : (cfg0.win 4).flush t' = true) (hne : t ≠ t') :
    Disjoint ((cfg0.win 4).blk t).view.set ((cfg0.win 4).blk t').view.set := by
  have hN : cfg0.N = 32 := N_0
  have h15 := (flush0_4 t).mp hf
  have h15' := (flush0_4 t').mp hf'
  have hlt := t.isLt
  have hlt' := t'.isLt
  have hv : t.val ≠ t'.val := fun e => hne (Fin.ext e)
  refine Finset.disjoint_left.mpr fun i hi hi' => ?_
  have a := (mem_blk4 t i).mp hi
  have b := (mem_blk4 t' i).mp hi'
  omega

/-- THE RESULT ARRAY'S CORNERS: at row `8 (t / 16)`, column 0, for `t` the last point of a core, the array ends at
    the sum of that core's sixteen point sums. -/
theorem final_corner (c : Dev nD) (t : Fin cfg0.N) (hf : t.val % 16 = 15) (q : Fin 16) (hq : q.val = t.val / 16 * 8) :
    (dats m 0 c).arrAt 4 cfg0.N (ix2 q (0 : Fin 128))
      = ∑ k ∈ Finset.Ico (t.val / 16 * 16) (t.val + 1), pointN m c k := by
  have h := (dats m 0 c).arrAt_emb_eq_flushed 4 disjoint4 t ((flush0_4 t).mpr hf) (ix2 (0 : Fin 8) (0 : Fin 128))
  have e : ((cfg0.win 4).blk t).view.emb (ix2 (0 : Fin 8) (0 : Fin 128)) = ix2 q (0 : Fin 128) :=
    funext fun a => Fin.ext (by
      match a with
      | ⟨0, _⟩ =>
        show win0_4.index t 0 * 8 + 1 * 0 = q.val
        have := (index4 t).1
        omega
      | ⟨1, _⟩ =>
        show win0_4.index t 1 * 128 + 1 * 0 = 0
        have := (index4 t).2
        omega)
  rw [e] at h
  rw [h, cast_eq, flushed_corner, corner_eq]

end Cert.KernelIdeal.Acc

end
-- ==== Proof.Rows.lean ====
/-
  The arrays as matrices of rows, and sums regrouped.

  A `[16, 2048, 256, 3]` array is read as 32768 rows of 768 entries: row `n` is the cell `(n / 2048, n % 2048)`, and
  entry `l` of a row is the point `l / 3` with coordinate `l % 3`. Row-major order makes this the plain reshape to
  `[32768, 768]`. Two regroupings of a sum over the rows follow: by 32 blocks of 1024 consecutive rows, and by the
  cells `(b, s)` of the `[16, 2048]` array; and the indices of the 4-D array that lie over one cell are exactly
  the 768 entries of its row.
-/
import Idealize.ShloMosaic.Lib.Pipeline.Value
import Idealize.ShloMosaic.Lib.ValueIdx

noncomputable section

open scoped BigOperators

namespace Cert.Rows

open Idealize.ShloMosaic Idealize.ShloMosaic.ValueIdx

abbrev S4 : Shape := ⟨4, ![16, 2048, 256, 3]⟩
abbrev S2 : Shape := ⟨2, ![32768, 768]⟩
abbrev SC : Shape := ⟨2, ![16, 2048]⟩

/-- Where entry `l` of row `n` sits in the 4-D array. -/
def rowIdx (n : Fin 32768) (l : Fin 768) : S4.Idx :=
  ix4 (⟨n.val / 2048, by have := n.isLt; omega⟩ : Fin 16) (⟨n.val % 2048, by omega⟩ : Fin 2048)
    (⟨l.val / 3, by have := l.isLt; omega⟩ : Fin 256) (⟨l.val % 3, by omega⟩ : Fin 3)

/-- The cell `(b, s)` of row `n`. -/
def cellOf (n : Fin 32768) : SC.Idx :=
  ix2 (⟨n.val / 2048, by have := n.isLt; omega⟩ : Fin 16) (⟨n.val % 2048, by omega⟩ : Fin 2048)

/-- A 4-D array read as a matrix of rows. -/
def flat {α : Type} (x : S4.Idx → α) : S2.Idx → α := fun j => x (rowIdx (j 0) (j 1))

theorem flat_apply {α : Type} (x : S4.Idx → α) (n : Fin 32768) (l : Fin 768) : flat x (ix2 n l) = x (rowIdx n l) := rfl

/-- The reshape to `[32768, 768]` is that reading: both keep the row-major position. -/
theorem shapeCast_flat {α : Type} (x : S4.Idx → α) (h : S4.ShapeCasts S2) : shapeCast S2 x h = flat x := by
  funext j
  refine shapeCast_apply x h j (rowIdx (j 0) (j 1)) ?_
  rw [Shape.rowMajor_val_four, Shape.rowMajor_val_two]
  show ((((j 0).val / 2048) * 2048 + (j 0).val % 2048) * 256 + (j 1).val / 3) * 3 + (j 1).val % 3 = (j 0).val * 768 + (j 1).val
  omega

/-- A sum over `a * b` consecutive numbers, taken `b` at a time. -/
theorem sum_prod_fin {M : Type*} [AddCommMonoid M] (a b : ℕ) (F : Fin (a * b) → M) :
    ∑ i : Fin a, ∑ j : Fin b, F (finProdFinEquiv (i, j)) = ∑ n, F n := by
  rw [← Fintype.sum_prod_type']
  exact Equiv.sum_comp finProdFinEquiv F

/-- The rows taken 1024 at a time: 32 blocks. -/
theorem sum_rows_blocks {M : Type*} [AddCommMonoid M] (F : Fin 32768 → M) :
    ∑ t : Fin 32, ∑ r : Fin 1024, F ⟨t.val * 1024 + r.val, by have := t.isLt; have := r.isLt; omega⟩ = ∑ n, F n := by
  refine Eq.trans ?_ (sum_prod_fin 32 1024 F)
  refine Finset.sum_congr rfl fun t _ => Finset.sum_congr rfl fun r _ => congrArg F (Fin.ext ?_)
  show t.val * 1024 + r.val = r.val + 1024 * t.val
  omega

/-- A sum over the cells is the sum over the rows of the rows' cells. -/
theorem sum_cells {M : Type*} [AddCommMonoid M] (g : SC.Idx → M) : ∑ j, g j = ∑ n : Fin 32768, g (cellOf n) := by
  refine (sum_idx2 g).trans (Eq.trans ?_ (sum_prod_fin 16 2048 fun n => g (cellOf n)))
  refine Finset.sum_congr rfl fun b _ => Finset.sum_congr rfl fun s _ => congrArg g ?_
  funext a
  have hb := b.isLt
  have hs := s.isLt
  match a with
  | ⟨0, _⟩ => exact Fin.ext (show b.val = (s.val + 2048 * b.val) / 2048 by omega)
  | ⟨1, _⟩ => exact Fin.ext (show s.val = (s.val + 2048 * b.val) % 2048 by omega)

/-! ## The indices over one cell -/

theorem rowIdx_injective (n : Fin 32768) : Function.Injective (rowIdx n) := fun l l' e => by
  have h2 : l.val / 3 = l'.val / 3 := congrArg (fun i : S4.Idx => (i 2).val) e
  have h3 : l.val % 3 = l'.val % 3 := congrArg (fun i : S4.Idx => (i 3).val) e
  exact Fin.ext (by omega)

/-- The entries of row `n`, as an embedding of their 768 positions into the 4-D array's indices. -/
def rowEmb (n : Fin 32768) : Fin 768 ↪ S4.Idx := ⟨rowIdx n, rowIdx_injective n⟩

theorem rowEmb_apply (n : Fin 32768) (l : Fin 768) : rowEmb n l = rowIdx n l := rfl

/-- The indices of the 4-D array that drop (their last two coordinates) to the cell of row `n` are the row's entries. -/
theorem filter_drop_cell (h : S4.ReducesTo ([2, 3] : List (Fin 4)) SC) (n : Fin 32768) :
    (Finset.univ.filter fun i : S4.Idx => h.drop i = cellOf n) = Finset.univ.map (rowEmb n) := by
  ext i
  simp only [Finset.mem_filter, Finset.mem_univ, true_and, Finset.mem_map]
  constructor
  · intro hi
    have h0 : (i 0).val = n.val / 2048 := congrArg (fun j : SC.Idx => (j 0).val) hi
    have h1 : (i 1).val = n.val % 2048 := congrArg (fun j : SC.Idx => (j 1).val) hi
    have l2 : (i 2).val < 256 := (i 2).isLt
    have l3 : (i 3).val < 3 := (i 3).isLt
    refine ⟨⟨(i 2).val * 3 + (i 3).val, by omega⟩, ?_⟩
    funext a
    apply Fin.ext
    match a with
    | ⟨0, _⟩ => exact h0.symm
    | ⟨1, _⟩ => exact h1.symm
    | ⟨2, _⟩ => show ((i 2).val * 3 + (i 3).val) / 3 = (i 2).val; omega
    | ⟨3, _⟩ => show ((i 2).val * 3 + (i 3).val) % 3 = (i 3).val; omega
  · rintro ⟨l, rfl⟩
    funext b
    match b with
    | ⟨0, _⟩ => rfl
    | ⟨1, _⟩ => rfl

/-- So a sum over the indices over a cell is the sum along its row, -/
theorem sum_over_cell {M : Type*} [AddCommMonoid M] (h : S4.ReducesTo ([2, 3] : List (Fin 4)) SC) (n : Fin 32768)
    (f : S4.Idx → M) : ∑ i ∈ Finset.univ.filter (fun i : S4.Idx => h.drop i = cellOf n), f i = ∑ l : Fin 768, f (rowIdx n l) := by
  rw [filter_drop_cell h n, Finset.sum_map]
  rfl

/-- and a minimum over them the minimum along its row. -/
theorem fold_min_over_cell (h : S4.ReducesTo ([2, 3] : List (Fin 4)) SC) (n : Fin 32768) (b : EReal) (f : S4.Idx → EReal) :
    (Finset.univ.filter fun i : S4.Idx => h.drop i = cellOf n).fold min b f
      = (Finset.univ : Finset (Fin 768)).fold min b (fun l => f (rowIdx n l)) := by
  rw [filter_drop_cell h n, Finset.fold_map]
  rfl

end Cert.Rows

end
-- ==== Proof.Total.lean ====
/-
  The result both programs compute, as one function of the seven arguments.

  Every row of the four arrays contributes its three masked roots, weighted; the sum of all 32768 contributions is
  the loss proper. By the law of sums of nonnegative terms it is also "the first array's total, plus a tenth of the
  second's, plus a fifth of the third's". The three scalar arguments then enter through one tail shared by both
  programs: `(L + (c · ld) · leg) + (gt0 · c') · ld`, with the same two literals on both sides.
-/
import proofs.«123583_j21010980012214_2_alg».proof.Proof.MaskedRoots
import proofs.«123583_j21010980012214_2_alg».proof.Proof.Rows
import Idealize.ShloMosaic.Lib.Pipeline.Value

noncomputable section

open scoped BigOperators

namespace Cert.Total

open Idealize.ShloMosaic Idealize.ShloMosaic.ValueIdx Cert.MaskedRoots Cert.Rows

abbrev SOne : Shape := ⟨1, ![1]⟩
abbrev SNil : Shape := ⟨0, ![]⟩

/-- The sum over all rows of the rows' contributions. -/
def rowsTotal (x0 x1 x2 t : S4.Idx → EReal) : EReal :=
  ∑ n : Fin 32768, rowVal (flat x0) (flat x1) (flat x2) (flat t) n

/-- The same, array by array: the first total, plus the weighted second and third totals. -/
theorem rowsTotal_eq (x0 x1 x2 t : S4.Idx → EReal) :
    rowsTotal x0 x1 x2 t
      = (∑ n : Fin 32768, rowRoot (flat x0) (flat t) n
          + Ideal.ofBits .f32 0x3DCCCCCD#32 * ∑ n : Fin 32768, rowRoot (flat x1) (flat t) n)
        + Ideal.ofBits .f32 0x3E4CCCCD#32 * ∑ n : Fin 32768, rowRoot (flat x2) (flat t) n :=
  sum_weighted Finset.univ _ _ _ _ _ _ ofBits_one_f32 (fun n _ => rowRoot_nonneg _ _ n) (fun n _ => rowRoot_nonneg _ _ n)

/-- The tail shared by both programs, on the loss proper `L` and the three one-element arguments. -/
def withTail (L : EReal) (x4 x5 x6 : SOne.Idx → EReal) : EReal :=
  (L + (Ideal.ofBits .f32 0x3B03126F#32 * x6 (ix1 (0 : Fin 1))) * x5 (ix1 (0 : Fin 1)))
    + (x4 (ix1 (0 : Fin 1)) * Ideal.ofBits .f32 0x3C23D70A#32) * x6 (ix1 (0 : Fin 1))

/-- THE RESULT: a scalar array holding the loss proper with the tail. -/
def result (x0 x1 x2 t : S4.Idx → EReal) (x4 x5 x6 : SOne.Idx → EReal) : SNil.Idx → EReal :=
  fun _ => withTail (rowsTotal x0 x1 x2 t) x4 x5 x6

/-- A one-element array reshaped to a scalar reads its one element. -/
theorem scalar_cast {α : Type} (x : SOne.Idx → α) (h : SOne.ShapeCasts SNil) (i : SNil.Idx) :
    shapeCast SNil x h i = x (ix1 (0 : Fin 1)) := by
  refine shapeCast_apply x h i (ix1 (0 : Fin 1)) ?_
  have h1 : (SOne.rowMajor (ix1 (0 : Fin 1))).val < 1 := (SOne.rowMajor (ix1 (0 : Fin 1))).isLt
  have h0 : (SNil.rowMajor i).val < 1 := (SNil.rowMajor i).isLt
  omega

end Cert.Total

end
-- ==== Proof.KernelRows.lean ====
/-
  The blocks the kernel sees are rows of the arguments.

  Before the region the four arrays are reshaped to `[32768, 768]`; the window of grid point `t` is block row `t` of
  that matrix, rows `1024 t … 1024 t + 1023`. So row `r` of the block at point `t` is row `1024 t + r` of the
  argument read as a matrix of rows, and a point's sum is the sum of those rows' contributions.
-/
import proofs.«123583_j21010980012214_2_alg».proof.Proof.KernelAcc
import proofs.«123583_j21010980012214_2_alg».proof.Proof.Rows
import proofs.«123583_j21010980012214_2_alg».proof.Proof.Total
import Idealize.ShloMosaic.Lib.Pipeline.Value
import Idealize.ShloMosaic.Lib.StableHlo.Run
import Idealize.ShloMosaic.Lib.Tactic

noncomputable section

open scoped BigOperators

namespace Cert.KernelIdeal.KRows

open Cert.KernelIdeal Cert.KernelIdeal.Gen Idealize.ShloMosaic Idealize.ShloMosaic.TcCoe Idealize.SL.Sem
open Idealize.ShloMosaic.ValueIdx Cert.MaskedRoots Cert.Rows Cert.KernelIdeal.Acc

variable (m : (ℓ : Loc nD τ sig) → Buf (Elt Ideal) ℓ)

/-- Every input window's block at point `t` is block row `t`, block column 0. -/
theorem index_in : ∀ t : Fin cfg0.N,
    (win0_0.index t 0 = t.val ∧ win0_0.index t 1 = 0) ∧ (win0_1.index t 0 = t.val ∧ win0_1.index t 1 = 0)
      ∧ (win0_2.index t 0 = t.val ∧ win0_2.index t 1 = 0) ∧ (win0_3.index t 0 = t.val ∧ win0_3.index t 1 = 0) :=
  (by decide +kernel : ∀ t : Fin grid0.N,
    (win0_0.index t 0 = t.val ∧ win0_0.index t 1 = 0) ∧ (win0_1.index t 0 = t.val ∧ win0_1.index t 1 = 0)
      ∧ (win0_2.index t 0 = t.val ∧ win0_2.index t 1 = 0) ∧ (win0_3.index t 0 = t.val ∧ win0_3.index t 1 = 0))

/-- What the region finds in the four reshaped arrays: the arguments read as matrices of rows. -/
theorem V_v0 (c : Dev nD) : (V m c main_v0 : S32768x768.Idx → EReal) = flat (m ((c : Thread nD τ).loc main_arg0)) := by
  have e : (V m c main_v0 : S32768x768.Idx → EReal)
      = shapeCast S32768x768 (m ((c : Thread nD τ).loc main_arg0)) Facts₀.shapeCasts_S16x2048x256x3_S32768x768 := by
    show StableHlo.after hostOps0 (fun b => m (c, b)) (Proc.devRef .tc main_v0) = _
    after_results
    rfl
  rw [e]; exact shapeCast_flat _ _
theorem V_v1 (c : Dev nD) : (V m c main_v1 : S32768x768.Idx → EReal) = flat (m ((c : Thread nD τ).loc main_arg1)) := by
  have e : (V m c main_v1 : S32768x768.Idx → EReal)
      = shapeCast S32768x768 (m ((c : Thread nD τ).loc main_arg1)) Facts₀.shapeCasts_S16x2048x256x3_S32768x768 := by
    show StableHlo.after hostOps0 (fun b => m (c, b)) (Proc.devRef .tc main_v1) = _
    after_results
    rfl
  rw [e]; exact shapeCast_flat _ _
theorem V_v2 (c : Dev nD) : (V m c main_v2 : S32768x768.Idx → EReal) = flat (m ((c : Thread nD τ).loc main_arg2)) := by
  have e : (V m c main_v2 : S32768x768.Idx → EReal)
      = shapeCast S32768x768 (m ((c : Thread nD τ).loc main_arg2)) Facts₀.shapeCasts_S16x2048x256x3_S32768x768 := by
    show StableHlo.after hostOps0 (fun b => m (c, b)) (Proc.devRef .tc main_v2) = _
    after_results
    rfl
  rw [e]; exact shapeCast_flat _ _
theorem V_v3 (c : Dev nD) : (V m c main_v3 : S32768x768.Idx → EReal) = flat (m ((c : Thread nD τ).loc main_arg3)) := by
  have e : (V m c main_v3 : S32768x768.Idx → EReal)
      = shapeCast S32768x768 (m ((c : Thread nD τ).loc main_arg3)) Facts₀.shapeCasts_S16x2048x256x3_S32768x768 := by
    show StableHlo.after hostOps0 (fun b => m (c, b)) (Proc.devRef .tc main_v3) = _
    after_results
    rfl
  rw [e]; exact shapeCast_flat _ _

/-- Row `r` of the block at point `t`, as a row of the whole matrix. -/
def rowOf (t : Fin cfg0.N) (r : Fin 1024) : Fin 32768 :=
  ⟨t.val * 1024 + r.val, by
    have hN : cfg0.N = 32 := N_0
    have := t.isLt
    have := r.isLt
    omega⟩

theorem iblk0_apply (c : Dev nD) (t : Fin cfg0.N) (r : Fin 1024) (l : Fin 768) :
    iblk m c 0 t (ix2 r l) = flat (m ((c : Thread nD τ).loc main_arg0)) (ix2 (rowOf t r) l) := by
  unfold iblk
  rw [View.read_apply]
  refine (congrFun (V_v0 m c) _).trans ?_
  refine congrArg (flat (m ((c : Thread nD τ).loc main_arg0))) (funext fun a => Fin.ext ?_)
  have hi := index_in t
  match a with
  | ⟨0, _⟩ =>
    show win0_0.index t 0 * 1024 + 1 * r.val = t.val * 1024 + r.val
    have := hi.1.1
    omega
  | ⟨1, _⟩ =>
    show win0_0.index t 1 * 768 + 1 * l.val = l.val
    have := hi.1.2
    omega

theorem iblk1_apply (c : Dev nD) (t : Fin cfg0.N) (r : Fin 1024) (l : Fin 768) :
    iblk m c 1 t (ix2 r l) = flat (m ((c : Thread nD τ).loc main_arg1)) (ix2 (rowOf t r) l) := by
  unfold iblk
  rw [View.read_apply]
  refine (congrFun (V_v1 m c) _).trans ?_
  refine congrArg (flat (m ((c : Thread nD τ).loc main_arg1))) (funext fun a => Fin.ext ?_)
  have hi := index_in t
  match a with
  | ⟨0, _⟩ =>
    show win0_1.index t 0 * 1024 + 1 * r.val = t.val * 1024 + r.val
    have := hi.2.1.1
    omega
  | ⟨1, _⟩ =>
    show win0_1.index t 1 * 768 + 1 * l.val = l.val
    have := hi.2.1.2
    omega

theorem iblk2_apply (c : Dev nD) (t : Fin cfg0.N) (r : Fin 1024) (l : Fin 768) :
    iblk m c 2 t (ix2 r l) = flat (m ((c : Thread nD τ).loc main_arg2)) (ix2 (rowOf t r) l) := by
  unfold iblk
  rw [View.read_apply]
  refine (congrFun (V_v2 m c) _).trans ?_
  refine congrArg (flat (m ((c : Thread nD τ).loc main_arg2))) (funext fun a => Fin.ext ?_)
  have hi := index_in t
  match a with
  | ⟨0, _⟩ =>
    show win0_2.index t 0 * 1024 + 1 * r.val = t.val * 1024 + r.val
    have := hi.2.2.1.1
    omega
  | ⟨1, _⟩ =>
    show win0_2.index t 1 * 768 + 1 * l.val = l.val
    have := hi.2.2.1.2
    omega

theorem iblk3_apply (c : Dev nD) (t : Fin cfg0.N) (r : Fin 1024) (l : Fin 768) :
    iblk m c 3 t (ix2 r l) = flat (m ((c : Thread nD τ).loc main_arg3)) (ix2 (rowOf t r) l) := by
  unfold iblk
  rw [View.read_apply]
  refine (congrFun (V_v3 m c) _).trans ?_
  refine congrArg (flat (m ((c : Thread nD τ).loc main_arg3))) (funext fun a => Fin.ext ?_)
  have hi := index_in t
  match a with
  | ⟨0, _⟩ =>
    show win0_3.index t 0 * 1024 + 1 * r.val = t.val * 1024 + r.val
    have := hi.2.2.2.1
    omega
  | ⟨1, _⟩ =>
    show win0_3.index t 1 * 768 + 1 * l.val = l.val
    have := hi.2.2.2.2
    omega

/-- A point's sum is the sum of the contributions of its 1024 rows of the arguments. -/
theorem pointSum_eq (c : Dev nD) (t : Fin cfg0.N) :
    pointSum m c t = ∑ r : Fin 1024,
      rowVal (flat (m ((c : Thread nD τ).loc main_arg0))) (flat (m ((c : Thread nD τ).loc main_arg1)))
        (flat (m ((c : Thread nD τ).loc main_arg2))) (flat (m ((c : Thread nD τ).loc main_arg3))) (rowOf t r) := by
  unfold pointSum
  refine Finset.sum_congr rfl fun r _ => ?_
  exact rowVal_congr (a := 1024) (b := 768) (a' := 32768) (iblk m c 0 t) (iblk m c 1 t) (iblk m c 2 t) (iblk m c 3 t)
    _ _ _ _ r (rowOf t r) (fun l => iblk0_apply m c t r l) (fun l => iblk1_apply m c t r l)
    (fun l => iblk2_apply m c t r l) (fun l => iblk3_apply m c t r l)

/-- THE TWO CORES TOGETHER: zero plus the first core's sixteen point sums, plus the second core's, is the total over
    all rows. -/
theorem cores_total (c : Dev nD) :
    (Ideal.ofBits .f32 0x00000000#32 + ∑ k ∈ Finset.Ico 0 16, pointN m c k) + ∑ k ∈ Finset.Ico 16 32, pointN m c k
      = Cert.Total.rowsTotal (m ((c : Thread nD τ).loc main_arg0)) (m ((c : Thread nD τ).loc main_arg1))
          (m ((c : Thread nD τ).loc main_arg2)) (m ((c : Thread nD τ).loc main_arg3)) := by
  rw [Ideal.ofBits_zero_f32, zero_add, Finset.sum_Ico_consecutive _ (by norm_num) (by norm_num), ← Finset.range_eq_Ico,
    Finset.sum_range]
  unfold Cert.Total.rowsTotal
  rw [← sum_rows_blocks]
  refine Finset.sum_congr rfl fun t _ => ?_
  have ht : t.val < cfg0.N := by rw [show cfg0.N = 32 from N_0]; exact t.isLt
  rw [pointN_of_lt m c t.val ht, pointSum_eq]
  rfl

end Cert.KernelIdeal.KRows

end
-- ==== Proof.KernelTail.lean ====
/-
  The lines after the region, and the kernel's run with its result named.

  After the region the program takes entries (0, 0) and (8, 0) of the result array — the two cores' totals —, adds
  them to zero, and adds the two products of the scalar arguments. With the two corners read off the write-backs and
  the cores' totals regrouped over the rows, the program's result is the one function of its arguments that the
  reference computes too.
-/
import proofs.«123583_j21010980012214_2_alg».proof.Proof.KernelRows
import proofs.«123583_j21010980012214_2_alg».proof.Proof.Total
import Idealize.ShloMosaic.Lib.Pipeline.Value
import Idealize.ShloMosaic.Lib.StableHlo.Run
import Idealize.ShloMosaic.Lib.Tactic

noncomputable section

open scoped BigOperators

namespace Cert.KernelIdeal.Tail

open Cert.KernelIdeal Cert.KernelIdeal.Gen Idealize.ShloMosaic Idealize.ShloMosaic.TcCoe Idealize.SL.Sem
open Idealize.ShloMosaic.ValueIdx Cert.MaskedRoots Cert.Rows Cert.KernelIdeal.Acc Cert.KernelIdeal.KRows Cert.Total

/-- The one-entry slice at row `q`, column 0, reshaped to a scalar, reads entry `(q, 0)`. -/
theorem corner_read (A : FVec Ideal S16x128 .f32) (q : Fin 16) (off : Fin 2 → Nat) (hoff : off = ![q.val, 0])
    (h : S16x128.Slices off S1x1) (h' : S1x1.ShapeCasts S_) (i : S_.Idx) :
    shapeCast S_ (extractStridedSlice S1x1 off A h) h' i = A (ix2 q (0 : Fin 128)) := by
  subst hoff
  have e : shapeCast S_ (extractStridedSlice S1x1 ![q.val, 0] A h) h' i
      = extractStridedSlice S1x1 ![q.val, 0] A h (ix2 (0 : Fin 1) (0 : Fin 1)) := by
    refine shapeCast_apply _ h' i (ix2 (0 : Fin 1) (0 : Fin 1)) ?_
    have h1 : (S1x1.rowMajor (ix2 (0 : Fin 1) (0 : Fin 1))).val < 1 := (S1x1.rowMajor (ix2 (0 : Fin 1) (0 : Fin 1))).isLt
    have h0 : (S_.rowMajor i).val < 1 := (S_.rowMajor i).isLt
    omega
  rw [e]
  exact extractStridedSlice_apply _ A h _ (ix2 q (0 : Fin 128)) (fun a => by
    match a with
    | ⟨0, _⟩ => rfl
    | ⟨1, _⟩ => rfl)

/-- The lines after the region, over any contents of the buffers they read: zero plus the two corners of the result
    array, then the tail on the three scalar arguments. -/
theorem tail_of (W : Valuation τ sig (Elt Ideal)) (i : S_.Idx) :
    StableHlo.after (hostOps1 (F := Ideal)) W (Proc.devRef .tc main_v19) i
      = withTail ((Ideal.ofBits .f32 0x00000000#32
            + (W (Proc.devRef .tc main_v4) : FVec Ideal S16x128 .f32) (ix2 (0 : Fin 16) (0 : Fin 128)))
            + (W (Proc.devRef .tc main_v4) : FVec Ideal S16x128 .f32) (ix2 (8 : Fin 16) (0 : Fin 128)))
          (W (Proc.devRef .tc main_arg4)) (W (Proc.devRef .tc main_arg5)) (W (Proc.devRef .tc main_arg6)) := by
  have e : StableHlo.after (hostOps1 (F := Ideal)) W (Proc.devRef .tc main_v19)
      = addf (addf (addf (addf (constant (F := Ideal) S_ .f32 0x00000000#32)
            (shapeCast S_ (extractStridedSlice S1x1 ![0, 0] (W (Proc.devRef .tc main_v4) : FVec Ideal S16x128 .f32) Facts₀.slices_S16x128_S1x1_0_0) Facts₀.shapeCasts_S1x1_S_))
            (shapeCast S_ (extractStridedSlice S1x1 ![8, 0] (W (Proc.devRef .tc main_v4) : FVec Ideal S16x128 .f32) Facts₀.slices_S16x128_S1x1_8_0) Facts₀.shapeCasts_S1x1_S_))
          (mulf (mulf (constant (F := Ideal) S_ .f32 0x3B03126F#32)
              (shapeCast S_ (W (Proc.devRef .tc main_arg6) : FVec Ideal S1 .f32) Facts₀.shapeCasts_S1_S_))
            (shapeCast S_ (W (Proc.devRef .tc main_arg5) : FVec Ideal S1 .f32) Facts₀.shapeCasts_S1_S_)))
        (mulf (mulf (shapeCast S_ (W (Proc.devRef .tc main_arg4) : FVec Ideal S1 .f32) Facts₀.shapeCasts_S1_S_)
            (constant (F := Ideal) S_ .f32 0x3C23D70A#32))
          (shapeCast S_ (W (Proc.devRef .tc main_arg6) : FVec Ideal S1 .f32) Facts₀.shapeCasts_S1_S_)) := by
    after_results
    rfl
  rw [e]
  simp only [addf_apply, mulf_apply, constant_apply]
  rw [corner_read _ (0 : Fin 16) ![0, 0] rfl, corner_read _ (8 : Fin 16) ![8, 0] rfl, scalar_cast, scalar_cast, scalar_cast]
  rfl

variable (m : (ℓ : Loc nD τ sig) → Buf (Elt Ideal) ℓ) (ρ : Dev nD → PrngReg)

/-- The result array's corner for the core whose last point is `n`, with the interval of its points named. -/
theorem final_corner_nat (c : Dev nD) (n : ℕ) (hn : n < cfg0.N) (hf : n % 16 = 15) (q : Fin 16) (hq : q.val = n / 16 * 8)
    (lo hi : ℕ) (hlo : lo = n / 16 * 16) (hhi : hi = n + 1) :
    (dats m 0 c).arrAt 4 cfg0.N (ix2 q (0 : Fin 128)) = ∑ k ∈ Finset.Ico lo hi, pointN m c k := by
  subst hlo hhi
  exact final_corner m c ⟨n, hn⟩ hf q hq

/-- THE KERNEL'S RESULT, as the frame run's post states it: the lines after the region applied to what the region
    leaves — the result array at the write-backs' contents, the scalar arguments as launched. -/
theorem value (c : Dev nD) :
    Pipeline.afterTail₀ cfgs (dats m) 0 (V0 m) [hostOps1] c main_v19
      = Cert.Total.result (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) := by
  funext i
  unfold Pipeline.afterTail₀
  simp only [List.flatten_cons, List.flatten_nil, List.append_nil]
  refine (tail_of _ i).trans ?_
  have hv4 := Pipeline.withArrays_arr (cfgs 0).spec launch0.win.arr_inj c (V0 m c) (fun w => (dats m 0 c).arrAt w (cfgs 0).N) 4
  have ha4 := (Pipeline.withArrays_of_ne (cfgs 0).spec c (V0 m c) (fun w => (dats m 0 c).arrAt w (cfgs 0).N) main_arg4
    (by exact (by decide : ∀ w, Pipeline.arrRef spec0 w ≠ main_arg4))).trans (V_main_arg4 m c)
  have ha5 := (Pipeline.withArrays_of_ne (cfgs 0).spec c (V0 m c) (fun w => (dats m 0 c).arrAt w (cfgs 0).N) main_arg5
    (by exact (by decide : ∀ w, Pipeline.arrRef spec0 w ≠ main_arg5))).trans (V_main_arg5 m c)
  have ha6 := (Pipeline.withArrays_of_ne (cfgs 0).spec c (V0 m c) (fun w => (dats m 0 c).arrAt w (cfgs 0).N) main_arg6
    (by exact (by decide : ∀ w, Pipeline.arrRef spec0 w ≠ main_arg6))).trans (V_main_arg6 m c)
  rw [ha4, ha5, ha6]
  refine congrArg (fun L => withTail L (m ((c : Thread nD τ).loc main_arg4)) (m ((c : Thread nD τ).loc main_arg5)) (m ((c : Thread nD τ).loc main_arg6))) ?_
  refine Eq.trans ?_ (cores_total m c)
  have h15 : 15 < cfg0.N := by rw [show cfg0.N = 32 from N_0]; norm_num
  have h31 : 31 < cfg0.N := by rw [show cfg0.N = 32 from N_0]; norm_num
  have c0 : (dats m 0 c).arrAt 4 cfg0.N (ix2 (0 : Fin 16) (0 : Fin 128)) = ∑ k ∈ Finset.Ico 0 16, pointN m c k :=
    final_corner_nat m c 15 h15 (by decide) (0 : Fin 16) (by decide) 0 16 (by decide) (by decide)
  have c8 : (dats m 0 c).arrAt 4 cfg0.N (ix2 (8 : Fin 16) (0 : Fin 128)) = ∑ k ∈ Finset.Ico 16 32, pointN m c k :=
    final_corner_nat m c 31 h31 (by decide) (8 : Fin 16) (by decide) 16 32 (by decide) (by decide)
  rw [← c0, ← c8]
  exact congrArg (fun A : FVec Ideal S16x128 .f32 =>
    (Ideal.ofBits .f32 0x00000000#32 + A (ix2 (0 : Fin 16) (0 : Fin 128))) + A (ix2 (8 : Fin 16) (0 : Fin 128))) hv4

/-- The kernel's run, read: the result at the one function of the arguments, the arguments unchanged. -/
theorem run : θ_run defs (onTc (τ := τ) (main (F := Ideal))) ⟨m, fun _ => 0, ρ⟩ fun r => ∀ c : Dev nD,
      r.2.mem ((c.tc : Thread nD τ).loc main_v19)
        = Cert.Total.result (m ((c : Thread nD τ).loc main_arg0)) (m ((c : Thread nD τ).loc main_arg1)) (m ((c : Thread nD τ).loc main_arg2)) (m ((c : Thread nD τ).loc main_arg3))
            (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v19 (Pipeline.mem_restRefs_of main_v19 (by decide) (by decide))).trans (value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Tail

end
-- ==== Proof.RefSide.lean ====
/-
  The reference's three totals, read at the ideal values.

  For each array the reference forms, cell by cell of `[16, 2048]`, the sum over the cell's 256 × 3 entries of the
  squared differences from the target and the least target entry over the same entries, selects the root of the
  first where the second is at least zero (zero elsewhere), and sums over all cells. Read through the rows of the
  arrays (a cell is a row, its 256 × 3 entries the row's 768), that total is the sum over the 32768 rows of the
  row's masked root.
-/
import proofs.«123583_j21010980012214_2_alg».proof.Proof.Gen.ReferenceIdeal.Run
import proofs.«123583_j21010980012214_2_alg».proof.Proof.MaskedRoots
import proofs.«123583_j21010980012214_2_alg».proof.Proof.Rows
import proofs.«123583_j21010980012214_2_alg».proof.Proof.Total
import Idealize.ShloMosaic.PureOps.Ideal.Laws
import Idealize.ShloMosaic.PureOps.Reduce
import Idealize.ShloMosaic.Lib.Pipeline.Value
import Idealize.ShloMosaic.Lib.ValueIdx

noncomputable section

open scoped BigOperators

namespace Cert.ReferenceIdeal.RefValue

open Cert.ReferenceIdeal Cert.ReferenceIdeal.Gen Idealize.ShloMosaic Idealize.ShloMosaic.ValueIdx
open Cert.MaskedRoots Cert.Rows

/-- The sum of squared differences over the cell of row `n` is the row's. -/
theorem cell_ss (x t : FVec Ideal S16x2048x256x3 .f32) (n : Fin 32768) :
    Host.reduceAdd (F := Ideal) (mulf (subf x t) (subf x t)) (constant (F := Ideal) S_ .f32 0x00000000#32)
        Facts₀.reducesTo_S16x2048x256x3_S16x2048_d2_3 Facts₀.h_S_ (cellOf n)
      = rowSS (flat x) (flat t) n := by
  show Ideal.hostReduceAdd _ _ _ (cellOf n) = _
  unfold Ideal.hostReduceAdd
  rw [sum_over_cell]
  show Ideal.ofBits .f32 0x00000000#32 + _ = _
  rw [Ideal.ofBits_zero_f32, zero_add]
  rfl

/-- The least target entry over the cell of row `n` is the row's. -/
theorem cell_min (t : FVec Ideal S16x2048x256x3 .f32) (n : Fin 32768) :
    Host.reduce (FloatOps.minimumf (F := Ideal) (φ := .f32)) t (constant (F := Ideal) S_ .f32 0x7F800000#32)
        Facts₀.reducesTo_S16x2048x256x3_S16x2048_d2_3 Facts₀.h_S_ (cellOf n)
      = rowMin (flat t) n := by
  refine (Host.reduce_eq_fold _ t _ _ _ (cellOf n)).trans ?_
  exact fold_min_over_cell _ n _ t

/-- The selection of a cell: the root of the sum of squares under the mask, zero elsewhere. -/
theorem where_apply (mn ss : FVec Ideal S16x2048 .f32) (j : S16x2048.Idx) :
    select (cmpf .oge mn (broadcastInDim S16x2048 ![] Facts₀.bcast_S_S16x2048 (constant (F := Ideal) S_ .f32 0x00000000#32)))
        (Host.sqrt ss)
        (broadcastInDim S16x2048 ![] Facts₀.bcast_S_S16x2048 (id (constant (F := Ideal) S_ .f32 0x00000000#32))) j
      = masked (mn j) (ss j) := by
  rw [select_apply, cmpf_apply,
    broadcastInDim_apply _ Facts₀.bcast_S_S16x2048 (constant (F := Ideal) S_ .f32 0x00000000#32) j (fun a => a.elim0) (fun a => a.elim0),
    broadcastInDim_apply _ Facts₀.bcast_S_S16x2048 (id (constant (F := Ideal) S_ .f32 0x00000000#32)) j (fun a => a.elim0) (fun a => a.elim0)]
  rfl

/-- One array's total, as the reference computes it from the array `x` and the target `t`. -/
def refTerm (x t : FVec Ideal S16x2048x256x3 .f32) : FVec Ideal S_ .f32 :=
  Host.reduceAdd (F := Ideal)
    (select
      (cmpf .oge
        (Host.reduce (FloatOps.minimumf (F := Ideal) (φ := .f32)) t (constant (F := Ideal) S_ .f32 0x7F800000#32)
          Facts₀.reducesTo_S16x2048x256x3_S16x2048_d2_3 Facts₀.h_S_)
        (broadcastInDim S16x2048 ![] Facts₀.bcast_S_S16x2048 (constant (F := Ideal) S_ .f32 0x00000000#32)))
      (Host.sqrt (Host.reduceAdd (F := Ideal) (mulf (subf x t) (subf x t)) (constant (F := Ideal) S_ .f32 0x00000000#32)
        Facts₀.reducesTo_S16x2048x256x3_S16x2048_d2_3 Facts₀.h_S_))
      (broadcastInDim S16x2048 ![] Facts₀.bcast_S_S16x2048 (id (constant (F := Ideal) S_ .f32 0x00000000#32))))
    (constant (F := Ideal) S_ .f32 0x00000000#32) Facts₀.reducesTo_S16x2048_S_d0_1 Facts₀.h_S_

/-- It is the sum over the rows of the row's masked root. -/
theorem refTerm_apply (x t : FVec Ideal S16x2048x256x3 .f32) (i : S_.Idx) :
    refTerm x t i = ∑ n : Fin 32768, rowRoot (flat x) (flat t) n := by
  unfold refTerm
  show Ideal.hostReduceAdd _ _ _ i = _
  rw [Ideal.hostReduceAdd_total _ (fun b => b.elim0), sum_cells]
  show Ideal.ofBits .f32 0x00000000#32 + _ = _
  rw [Ideal.ofBits_zero_f32, zero_add]
  refine Finset.sum_congr rfl fun n _ => ?_
  rw [where_apply, cell_min, cell_ss]
  rfl

/-- The last nine operations, on any three totals and any three scalars, read at the one index. -/
theorem combine_apply (T0 T1 T2 a4 a5 a6 : FVec Ideal S_ .f32) (i : S_.Idx) :
    addf (addf (addf (addf T0
            (mulf (constant (F := Ideal) S_ .f32 0x3DCCCCCD#32) T1))
          (mulf (constant (F := Ideal) S_ .f32 0x3E4CCCCD#32) T2))
        (mulf (mulf (constant (F := Ideal) S_ .f32 0x3B03126F#32) a6) a5))
      (mulf (mulf a4 (constant (F := Ideal) S_ .f32 0x3C23D70A#32)) a6) i
      = ((T0 i + Ideal.ofBits .f32 0x3DCCCCCD#32 * T1 i) + Ideal.ofBits .f32 0x3E4CCCCD#32 * T2 i
          + (Ideal.ofBits .f32 0x3B03126F#32 * a6 i) * a5 i)
        + (a4 i * Ideal.ofBits .f32 0x3C23D70A#32) * a6 i := rfl

/-- THE REFERENCE'S RESULT: the first array's total, plus the weighted second and third, then the tail on the three
    scalar arguments — the one function of the arguments, by the law of sums of nonnegative terms. -/
theorem ref_result (x0 x1 x2 x3 : FVec Ideal S16x2048x256x3 .f32) (x4 x5 x6 : FVec Ideal S1 .f32) :
    addf (addf (addf (addf (refTerm x0 x3)
            (mulf (constant (F := Ideal) S_ .f32 0x3DCCCCCD#32) (refTerm x1 x3)))
          (mulf (constant (F := Ideal) S_ .f32 0x3E4CCCCD#32) (refTerm x2 x3)))
        (mulf (mulf (constant (F := Ideal) S_ .f32 0x3B03126F#32) (shapeCast S_ x6 Facts₀.shapeCasts_S1_S_))
          (shapeCast S_ x5 Facts₀.shapeCasts_S1_S_)))
      (mulf (mulf (shapeCast S_ x4 Facts₀.shapeCasts_S1_S_) (constant (F := Ideal) S_ .f32 0x3C23D70A#32))
        (shapeCast S_ x6 Facts₀.shapeCasts_S1_S_))
      = Cert.Total.result x0 x1 x2 x3 x4 x5 x6 := by
  funext i
  refine (combine_apply _ _ _ _ _ _ i).trans ?_
  rw [refTerm_apply x0 x3 i, refTerm_apply x1 x3 i, refTerm_apply x2 x3 i,
    Cert.Total.scalar_cast x4 _ i, Cert.Total.scalar_cast x5 _ i, Cert.Total.scalar_cast x6 _ i]
  exact (congrArg (fun L => Cert.Total.withTail L x4 x5 x6) (Cert.Total.rowsTotal_eq x0 x1 x2 x3)).symm

end Cert.ReferenceIdeal.RefValue

end
-- ==== Proof.lean ====
/-
  A masked sum of distances, streamed through a two-core grid, against its plain definition.

  For three arrays `out`, `gt1`, `gt2` and a target, all `[16, 2048, 256, 3]`, every cell `(b, s)` has, per array, the
  root of the sum over its 256 × 3 entries of the squared differences from the target, counted only where the least
  target entry over those entries is at least zero. The loss is the sum over the cells of the first array's roots,
  plus a tenth of the second's, plus a fifth of the third's, and then two products of the scalar arguments.

  The kernel reads each array as 32768 rows of 768 entries and walks a grid of 2 cores × 16 blocks of 1024 rows.
  Per block it forms each row's three masked roots, weights and adds them row by row, sums the 1024 rows, and adds
  that to one entry of the core's output block; the two cores' totals are added after the region. The reference
  sums each array's roots over all cells first and weights the three totals.

  Over the extended reals the two are the same number: a cell is a row and its entries the row's entries (the
  row-major reshape), the blocks partition the rows, sums may be regrouped freely, and a weight moves across a sum
  of NONNEGATIVE terms — a masked root is a root of a sum of squares, or zero. Nothing here needs the inputs to be
  finite. The literals (the weights, the two constants of the tail) are the same words on both sides and are never
  evaluated, except the word of one, which is one.

  The modules: MaskedRoots (the masked root, nonnegativity, the law), Rows (rows, cells, blocks of rows),
  Total (the result as one function), KernelBody / KernelCases / KernelAcc / KernelRows / KernelTail (what the
  kernel's result array and result hold), RefSide (the reference's totals), and the claims below.
-/
import proofs.«123583_j21010980012214_2_alg».proof.Defs
import proofs.«123583_j21010980012214_2_alg».proof.Proof.Gen.Kernel
import proofs.«123583_j21010980012214_2_alg».proof.Proof.Gen.Kernel.Frame
import proofs.«123583_j21010980012214_2_alg».proof.Proof.Gen.KernelIdeal
import proofs.«123583_j21010980012214_2_alg».proof.Proof.Gen.KernelIdeal.Frame
import proofs.«123583_j21010980012214_2_alg».proof.Proof.Gen.ReferenceIdeal
import proofs.«123583_j21010980012214_2_alg».proof.Proof.Gen.ReferenceIdeal.Run
import proofs.«123583_j21010980012214_2_alg».proof.Proof.Gen.Pre_finite_inputs
import proofs.«123583_j21010980012214_2_alg».proof.Proof.KernelTail
import proofs.«123583_j21010980012214_2_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten on the way to the extended reals. -/
theorem preserves : Cert.preserves_Kernel_KernelIdeal := trivial

/-- Both programs end at the one function of the arguments: the kernel by its accumulation over the grid and the
    lines after the region, the reference by its three totals and the law of sums of nonnegative terms. -/
theorem algebraic : Cert.algebraic_KernelIdeal_ReferenceIdeal := by
  intro m ρ m' ρ' _ hagree
  refine ⟨fun c => Cert.Total.result (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.ref_result (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))).trans ?_
  rw [(hagree c).1, (hagree c).2.1, (hagree c).2.2.1, (hagree c).2.2.2.1, (hagree c).2.2.2.2.1,
    (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
